-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S64x2 : Shape := ⟨2, ![64, 2]⟩
abbrev S64 : Shape := ⟨1, ![64]⟩
abbrev S64x2048 : Shape := ⟨2, ![64, 2048]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel

variable [Facts]

def fn {F : FTy → Type} [FloatOps F] (main_arg0 : FVec F S64x2048x512 .f32) (main_arg1 : IVec S64x2 32) (main_arg2 : IVec S64 32) (main_arg3 : IVec S64 32) (main_arg4 : IVec S64x2048 32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  main_v3
-- ==== Kernel.lean ====
abbrev S64x2048x512 : Shape := ⟨3, ![64, 2048, 512]⟩
abbrev S64x2 : Shape := ⟨2, ![64, 2]⟩
abbrev S64 : Shape := ⟨1, ![64]⟩
abbrev S64x2048 : Shape := ⟨2, ![64, 2048]⟩
abbrev S2048 : Shape := ⟨1, ![2048]⟩
abbrev S1x2048 : Shape := ⟨2, ![1, 2048]⟩
abbrev S64x1 : Shape := ⟨2, ![64, 1]⟩
abbrev S_ : Shape := ⟨0, ![]⟩
abbrev S8x512x512 : Shape := ⟨3, ![8, 512, 512]⟩
abbrev S8x512 : Shape := ⟨2, ![8, 512]⟩
abbrev S8x512x1 : Shape := ⟨3, ![8, 512, 1]⟩

abbrev nBuf : Space → Nat
  | .hbm => 36
  | .vmem => 6
  | .smem => 0
  | _ => 0

abbrev bufTy : (tb : Table) → Fin (tcTables nBuf tb) → BufTy
  | .hbm, ⟨0, _⟩ => ⟨S64x2048x512, .f32⟩
  | .hbm, ⟨1, _⟩ => ⟨S64x2, .i32⟩
  | .hbm, ⟨2, _⟩ => ⟨S64, .i32⟩
  | .hbm, ⟨3, _⟩ => ⟨S64, .i32⟩
  | .hbm, ⟨4, _⟩ => ⟨S64x2048, .i32⟩
  | .hbm, ⟨5, _⟩ => ⟨S2048, .i32⟩
  | .hbm, ⟨6, _⟩ => ⟨S1x2048, .i32⟩
  | .hbm, ⟨7, _⟩ => ⟨S64x1, .i32⟩
  | .hbm, ⟨8, _⟩ => ⟨S64x1, .i32⟩
  | .hbm, ⟨9, _⟩ => ⟨S64, .i32⟩
  | .hbm, ⟨10, _⟩ => ⟨S64, .f32⟩
  | .hbm, ⟨11, _⟩ => ⟨S64x1, .f32⟩
  | .hbm, ⟨12, _⟩ => ⟨S64x2048, .f32⟩
  | .hbm, ⟨13, _⟩ => ⟨S64x2048, .f32⟩
  | .hbm, ⟨14, _⟩ => ⟨S64x2048, .f32⟩
  | .hbm, ⟨15, _⟩ => ⟨S_, .f32⟩
  | .hbm, ⟨16, _⟩ => ⟨S64x2048, .f32⟩
  | .hbm, ⟨17, _⟩ => ⟨S64x2048, .f32⟩
  | .hbm, ⟨18, _⟩ => ⟨S64x2048, .i32⟩
  | .hbm, ⟨19, _⟩ => ⟨S64x2048, .i32⟩
  | .hbm, ⟨20, _⟩ => ⟨S64x2048, .i1⟩
  | .hbm, ⟨21, _⟩ => ⟨S64x2048, .i32⟩
  | .hbm, ⟨22, _⟩ => ⟨S64x2048, .i32⟩
  | .hbm, ⟨23, _⟩ => ⟨S64x2048, .i1⟩
  | .hbm, ⟨24, _⟩ => ⟨S64x2048, .i1⟩
  | .hbm, ⟨25, _⟩ => ⟨S64x1, .i32⟩
  | .hbm, ⟨26, _⟩ => ⟨S64x2048, .i32⟩
  | .hbm, ⟨27, _⟩ => ⟨S64x2048, .i32⟩
  | .hbm, ⟨28, _⟩ => ⟨S64x2048, .i1⟩
  | .hbm, ⟨29, _⟩ => ⟨S64x2048, .i1⟩
  | .hbm, ⟨30, _⟩ => ⟨S64x2048, .i1⟩
  | .hbm, ⟨31, _⟩ => ⟨S_, .f32⟩
  | .hbm, ⟨32, _⟩ => ⟨S_, .f32⟩
  | .hbm, ⟨33, _⟩ => ⟨S64x2048, .f32⟩
  | .hbm, ⟨34, _⟩ => ⟨S64x2048, .f32⟩
  | .hbm, ⟨35, _⟩ => ⟨S64x2048x512, .f32⟩
  | .local _ .vmem, ⟨0, _⟩ => ⟨S8x512x512, .f32⟩
  | .local _ .vmem, ⟨1, _⟩ => ⟨S8x512x512, .f32⟩
  | .local _ .vmem, ⟨2, _⟩ => ⟨S8x512, .f32⟩
  | .local _ .vmem, ⟨3, _⟩ => ⟨S8x512, .f32⟩
  | .local _ .vmem, ⟨4, _⟩ => ⟨S8x512x512, .f32⟩
  | .local _ .vmem, ⟨5, _⟩ => ⟨S8x512x512, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S2048_S1x2048_1 : S2048.BroadcastsInDim S1x2048 (![1] : Fin 1 → Fin S1x2048.rank)
  slices_S64x2_S64x1_0_0 : S64x2.Slices ![0, 0] S64x1
  slices_S64x2_S64x1_0_1 : S64x2.Slices ![0, 1] S64x1
  bcast_S64_S64x1_0 : S64.BroadcastsInDim S64x1 (![0] : Fin 1 → Fin S64x1.rank)
  bcast_S64x1_S64x2048_0_1 : S64x1.BroadcastsInDim S64x2048 (![0, 1] : Fin 2 → Fin S64x2048.rank)
  bcast_S_S64x2048 : S_.BroadcastsInDim S64x2048 (![] : Fin 0 → Fin S64x2048.rank)
  bcast_S1x2048_S64x2048_0_1 : S1x2048.BroadcastsInDim S64x2048 (![0, 1] : Fin 2 → Fin S64x2048.rank)
  inb_S8x512x512_S8x512x512_0_0_0 : ∀ a, (![0, 0, 0] : Fin 3 → Nat) a + S8x512x512.size a ≤ S8x512x512.size a
  h_S8x512x512 : 0 < S8x512x512.numel
  inb_S8x512_S8x512_0_0 : ∀ a, (![0, 0] : Fin 2 → Nat) a + S8x512.size a ≤ S8x512.size a
  h_S8x512 : 0 < S8x512.numel
  shapeCasts_S8x512_S8x512 : S8x512.ShapeCasts S8x512
  shapeCasts_S8x512_S8x512x1 : S8x512.ShapeCasts S8x512x1
  broadcasts_S8x512x1_S8x512x512 : S8x512x1.Broadcasts S8x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S64x2048x512.size a
  hwx0_0 : ∀ i : grid0.Coords, EltTy.bits .f32 = 32 ∨ (Rect.block (s := S64x2048x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S64x2048.size a
  hwx0_1 : ∀ i : grid0.Coords, EltTy.bits .f32 = 32 ∨ (Rect.block (s := S64x2048) S8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x512.size a ≤ S64x2048x512.size a
  hwx0_2 : ∀ i : grid0.Coords, EltTy.bits .f32 = 32 ∨ (Rect.block (s := S64x2048x512) S8x512x512.size (cc0_transform_2 i) (hinb0_2 i)).WholeWords (EltTy.packing .f32)

variable [Facts₀]

abbrev win0_0 : Pipeline.Window sig grid0 :=
  Pipeline.Window.ofSpec (Memref.whole main_arg0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S8x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x2048x512 : Shape := ⟨3, ![64, 2048, 512]⟩
abbrev S64x2 : Shape := ⟨2, ![64, 2]⟩
abbrev S64 : Shape := ⟨1, ![64]⟩
abbrev S64x2048 : Shape := ⟨2, ![64, 2048]⟩
abbrev S2048 : Shape := ⟨1, ![2048]⟩
abbrev S1x2048 : Shape := ⟨2, ![1, 2048]⟩
abbrev S64x1 : Shape := ⟨2, ![64, 1]⟩
abbrev S_ : Shape := ⟨0, ![]⟩
abbrev S64x2048x1 : Shape := ⟨3, ![64, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S64x2, .i32⟩
  | .hbm, ⟨2, _⟩ => ⟨S64, .i32⟩
  | .hbm, ⟨3, _⟩ => ⟨S64, .i32⟩
  | .hbm, ⟨4, _⟩ => ⟨S64x2048, .i32⟩
  | .hbm, ⟨5, _⟩ => ⟨S2048, .i32⟩
  | .hbm, ⟨6, _⟩ => ⟨S1x2048, .i32⟩
  | .hbm, ⟨7, _⟩ => ⟨S64x1, .i32⟩
  | .hbm, ⟨8, _⟩ => ⟨S64x1, .i32⟩
  | .hbm, ⟨9, _⟩ => ⟨S64, .i32⟩
  | .hbm, ⟨10, _⟩ => ⟨S64, .f32⟩
  | .hbm, ⟨11, _⟩ => ⟨S64x1, .f32⟩
  | .hbm, ⟨12, _⟩ => ⟨S64x2048, .f32⟩
  | .hbm, ⟨13, _⟩ => ⟨S64x2048, .f32⟩
  | .hbm, ⟨14, _⟩ => ⟨S64x2048, .f32⟩
  | .hbm, ⟨15, _⟩ => ⟨S_, .f32⟩
  | .hbm, ⟨16, _⟩ => ⟨S64x2048, .f32⟩
  | .hbm, ⟨17, _⟩ => ⟨S64x2048, .f32⟩
  | .hbm, ⟨18, _⟩ => ⟨S64x2048, .i32⟩
  | .hbm, ⟨19, _⟩ => ⟨S64x2048, .i32⟩
  | .hbm, ⟨20, _⟩ => ⟨S64x2048, .i1⟩
  | .hbm, ⟨21, _⟩ => ⟨S64x2048, .i32⟩
  | .hbm, ⟨22, _⟩ => ⟨S64x2048, .i32⟩
  | .hbm, ⟨23, _⟩ => ⟨S64x2048, .i1⟩
  | .hbm, ⟨24, _⟩ => ⟨S64x2048, .i1⟩
  | .hbm, ⟨25, _⟩ => ⟨S64x1, .i32⟩
  | .hbm, ⟨26, _⟩ => ⟨S64x2048, .i32⟩
  | .hbm, ⟨27, _⟩ => ⟨S64x2048, .i32⟩
  | .hbm, ⟨28, _⟩ => ⟨S64x2048, .i1⟩
  | .hbm, ⟨29, _⟩ => ⟨S64x2048, .i1⟩
  | .hbm, ⟨30, _⟩ => ⟨S64x2048, .i1⟩
  | .hbm, ⟨31, _⟩ => ⟨S_, .f32⟩
  | .hbm, ⟨32, _⟩ => ⟨S_, .f32⟩
  | .hbm, ⟨33, _⟩ => ⟨S64x2048, .f32⟩
  | .hbm, ⟨34, _⟩ => ⟨S64x2048, .f32⟩
  | .hbm, ⟨35, _⟩ => ⟨S64x2048x1, .f32⟩
  | .hbm, ⟨36, _⟩ => ⟨S64x2048x512, .f32⟩
  | .hbm, ⟨37, _⟩ => ⟨S64x2048x512, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  slices_S64x2_S64x1_0_0 : S64x2.Slices ![0, 0] S64x1
  slices_S64x2_S64x1_0_1 : S64x2.Slices ![0, 1] S64x1
  bcast_S64_S64x1_0 : S64.BroadcastsInDim S64x1 (![0] : Fin 1 → Fin S64x1.rank)
  bcast_S64x1_S64x2048_0_1 : S64x1.BroadcastsInDim S64x2048 (![0, 1] : Fin 2 → Fin S64x2048.rank)
  bcast_S_S64x2048 : S_.BroadcastsInDim S64x2048 (![] : Fin 0 → Fin S64x2048.rank)
  bcast_S1x2048_S64x2048_0_1 : S1x2048.BroadcastsInDim S64x2048 (![0, 1] : Fin 2 → Fin S64x2048.rank)
  bcast_S64x2048_S64x2048x1_0_1 : S64x2048.BroadcastsInDim S64x2048x1 (![0, 1] : Fin 2 → Fin S64x2048x1.rank)
  bcast_S64x2048x1_S64x2048x512_0_1_2 : S64x2048x1.BroadcastsInDim S64x2048x512 (![0, 1, 2] : Fin 3 → Fin S64x2048x512.rank)

variable [Facts₀]

class Facts : Prop extends Facts₀ where

variable [Facts]
-- ==== Proof.ScaledRows.lean ====
/-
  The kernel's result array. Every grid point (bi, si) of the 8 × 4 grid multiplies the block of rows
  8·bi … 8·bi + 7 and positions 512·si … 512·si + 511 of x, over all 512 features, by that block of the
  [64, 2048] weight array, each weight spread along the feature axis. The output blocks tile the whole
  [64, 2048, 512] array, so after the run the array holds, at every index (b, s, d), x(b, s, d) · w(b, s):
  `scaled x w`. Here w is whatever the weight array holds when the region is entered; that it is the
  reference's weight term is a separate module.
-/
import proofs.«172946_j23905787970107_2_alg».proof.Proof.Gen.KernelIdeal.Value
import Idealize.ShloMosaic.Lib.Pipeline.Value

noncomputable section

open Idealize.ShloMosaic Idealize.ShloMosaic.TcCoe Idealize.SL.Sem
open Idealize.ShloMosaic.Pipeline (Dat)

namespace Cert.KernelIdeal.Scaled

open Cert.KernelIdeal Cert.KernelIdeal.Gen Cert.KernelIdeal.Value

variable {F : FTy → Type} [FloatOps F]
variable (m : (ℓ : Loc nD τ sig) → Buf (Elt F) ℓ) (ρ : Dev nD → PrngReg)

/-- The row (b, s) of the weight array that the element (b, s, d) is scaled by. -/
abbrev rowOf (i : S64x2048x512.Idx) : S64x2048.Idx := fun a => match a with
  | ⟨0, _⟩ => ⟨(i 0).val, (i 0).isLt⟩
  | ⟨1, _⟩ => ⟨(i 1).val, (i 1).isLt⟩

/-- The same inside one block: the block's row (p, q) that its element (p, q, d) is scaled by. -/
abbrev blockRowOf (y : S8x512x512.Idx) : S8x512.Idx := fun a => match a with
  | ⟨0, _⟩ => ⟨(y 0).val, (y 0).isLt⟩
  | ⟨1, _⟩ => ⟨(y 1).val, (y 1).isLt⟩

/-- Every element of `x` times the weight of its row: (b, s, d) ↦ x(b, s, d) · w(b, s). -/
def scaled (x : S64x2048x512.Idx → Elt F .f32) (w : S64x2048.Idx → Elt F .f32) : S64x2048x512.Idx → Elt F .f32 :=
  fun i => FloatOps.mulf (x i) (w (rowOf i))

theorem zero_offsets : (![0, 0, 0] : Fin 3 → Nat) = fun _ => 0 := funext fun a => by fin_cases a <;> rfl
theorem zero_offsets2 : (![0, 0] : Fin 2 → Nat) = fun _ => 0 := funext fun a => by fin_cases a <;> rfl

/-- What the body leaves in the output block, element by element: the x block's element times the weight block's
    entry of the same row. -/
theorem block_apply (x0 : Vec F S8x512x512 .f32) (x1 : Vec F S8x512 .f32) (y : S8x512x512.Idx) :
    out0_2 x0 x1 y = FloatOps.mulf (x0 y) (x1 (blockRowOf y)) := by
  unfold out0_2
  refine (canon2_eq _ _ y).trans ?_
  simp only [View.ld_unit_zero (S := S8x512x512) zero_offsets, View.ld_unit_zero (S := S8x512) zero_offsets2]
  show FloatOps.mulf (x0 (ix2_0 y)) (x1 (ix2_1 y)) = _
  have e0 : ix2_0 y = y := by
    funext a; apply Fin.ext
    match a with
    | ⟨0, _⟩ => rfl
    | ⟨1, _⟩ => rfl
    | ⟨2, _⟩ => rfl
  have e1 : ix2_1 y = blockRowOf y := by
    funext a; apply Fin.ext
    match a with
    | ⟨0, _⟩ => rfl
    | ⟨1, _⟩ => rfl
  rw [e0, e1]

/-- The three windows move together over the grid: the x block and the output block have the same block index, and
    the weight block has its first two components. -/
theorem index_facts : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 2) = win0_2.index t (0 : Fin 3)
    ∧ win0_1.index t (1 : Fin 2) = win0_2.index t (1 : Fin 3) :=
  (by decide +kernel : ∀ t : Fin grid0.N, _)

/-- Every block (q0, q1, 0) of the 8 × 4 × 1 blocks of the output array is some grid point's. -/
theorem index_onto : ∀ (q0 : Fin 8) (q1 : Fin 4), ∃ t : Fin cfg0.N, win0_2.index t = ![q0.val, q1.val, 0] :=
  (by decide +kernel : ∀ (q0 : Fin 8) (q1 : Fin 4), ∃ t : Fin grid0.N, win0_2.index t = ![q0.val, q1.val, 0])

/-- What grid point `t` writes back is block `t` of `scaled x w`, x and w as the region finds them. -/
theorem flushed_eq (c : Dev nD) (t : Fin cfg0.N) :
    (dats m 0 c).flushed 2 t = ((cfg0.win 2).blk t).view.read (Elt F) (scaled (V m c main_arg0) (V m c main_v25)) := by
  show (cfg0.win 2).cut (grid0.coords t) ((dats m 0 c).after 2 t) = _
  rw [after0_2]
  obtain ⟨e0, e1, e2, e3, e4⟩ := index_facts t
  funext j
  show out0_2 (iblk m c 0 t) (iblk m c 1 t) j = scaled (V m c main_arg0) (V m c main_v25) (((cfg0.win 2).blk t).view.emb j)
  refine (block_apply (iblk m c 0 t) (iblk m c 1 t) j).trans ?_
  show FloatOps.mulf (V m c main_arg0 (((cfg0.win 0).blk t).view.emb j)) (V m c main_v25 (((cfg0.win 1).blk t).view.emb (blockRowOf j)))
    = FloatOps.mulf (V m c main_arg0 (((cfg0.win 2).blk t).view.emb j)) (V m c main_v25 (rowOf (((cfg0.win 2).blk t).view.emb j)))
  have h0 : ((cfg0.win 0).blk t).view.emb j = ((cfg0.win 2).blk t).view.emb j := by
    funext a; apply Fin.ext
    match a with
    | ⟨0, _⟩ => show win0_0.index t (0 : Fin 3) * 8 + 1 * (j 0).val = win0_2.index t (0 : Fin 3) * 8 + 1 * (j 0).val; omega
    | ⟨1, _⟩ => show win0_0.index t (1 : Fin 3) * 512 + 1 * (j 1).val = win0_2.index t (1 : Fin 3) * 512 + 1 * (j 1).val; omega
    | ⟨2, _⟩ => show win0_0.index t (2 : Fin 3) * 512 + 1 * (j 2).val = win0_2.index t (2 : Fin 3) * 512 + 1 * (j 2).val; omega
  have h1 : ((cfg0.win 1).blk t).view.emb (blockRowOf j) = rowOf (((cfg0.win 2).blk t).view.emb j) := by
    funext a; apply Fin.ext
    match a with
    | ⟨0, _⟩ => show win0_1.index t (0 : Fin 2) * 8 + 1 * (j 0).val = win0_2.index t (0 : Fin 3) * 8 + 1 * (j 0).val; omega
    | ⟨1, _⟩ => show win0_1.index t (1 : Fin 2) * 512 + 1 * (j 1).val = win0_2.index t (1 : Fin 3) * 512 + 1 * (j 1).val; omega
  rw [h0, h1]

/-- An index of the array lies in point `t`'s output block iff each coordinate lies in the block's range on its axis. -/
theorem mem_block (t : Fin cfg0.N) (i : S64x2048x512.Idx) :
    i ∈ ((cfg0.win 2).blk t).view.set ↔ ∀ a : Fin 3, win0_2.index t a * S8x512x512.size a ≤ (i a).val ∧ (i a).val < win0_2.index t a * S8x512x512.size a + S8x512x512.size a := by
  show i ∈ ((View.whole main_v26).slice (win0_2.rect t)).set ↔ _
  rw [View.set_slice_whole, Rect.mem_set_unit]
  exact Iff.rfl

/-- The output blocks cover the array: (b, s, d) lies in the block of the point with block index (b / 8, s / 512, 0). -/
theorem covered (i : S64x2048x512.Idx) :
    ∃ t : Fin cfg0.N, (cfg0.win 2).flush t = true ∧ i ∈ ((cfg0.win 2).blk t).view.set := by
  have hi0 : (i 0).val < 64 := (i 0).isLt
  have hi1 : (i 1).val < 2048 := (i 1).isLt
  have hi2 : (i 2).val < 512 := (i 2).isLt
  obtain ⟨t, ht⟩ := index_onto ⟨(i 0).val / 8, by omega⟩ ⟨(i 1).val / 512, by omega⟩
  have q0 : win0_2.index t (0 : Fin 3) = (i 0).val / 8 := congrFun ht 0
  have q1 : win0_2.index t (1 : Fin 3) = (i 1).val / 512 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 512 ≤ (i 1).val ∧ (i 1).val < win0_2.index t (1 : Fin 3) * 512 + 512; omega
  | ⟨2, _⟩ => show win0_2.index t (2 : Fin 3) * 512 ≤ (i 2).val ∧ (i 2).val < win0_2.index t (2 : Fin 3) * 512 + 512; omega

/-- The result array after the run: x as launched, every element times the weight of its row, the weights as the
    region finds them. -/
theorem final (c : Dev nD) :
    (dats m 0 c).arrAt 2 cfg0.N = scaled (m ((c : Thread nD τ).loc main_arg0)) (V m c main_v25) := by
  rw [← V_main_arg0 m c]
  exact (dats m 0 c).arrAt_eq_of_cover 2 (scaled (V m c main_arg0) (V m c main_v25)) (fun t _ => flushed_eq m c t) covered

end Cert.KernelIdeal.Scaled

end
-- ==== Proof.Weights.lean ====
/-
  The weights the kernel's region finds. Before the region the kernel's @main computes the [64, 2048] weight array
  from the four integer arguments (the span array, the text lengths, the aspect lengths, the distances) by thirty host
  operations: integer comparisons against the position, a difference of lengths converted to a float, a quotient, a
  difference from 1 and a selection against 0. The reference's @main computes its weights by the same thirty
  operations in the same order, so the array the region finds is the reference's weight stage of the same arguments,
  operation for operation. Nothing about the weights' arithmetic is used or established here: only that the two
  programs build them by one and the same term.
-/
import proofs.«172946_j23905787970107_2_alg».proof.Proof.Gen.KernelIdeal.Frame
import proofs.«172946_j23905787970107_2_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.KernelIdeal.Weights

open Cert.KernelIdeal Cert.KernelIdeal.Gen

variable {F : FTy → Type} [FloatOps F]
variable (m : (ℓ : Loc nD τ sig) → Buf (Elt F) ℓ)

set_option maxHeartbeats 2000000 in
/-- The weight array as the region finds it is the reference's weight stage of the kernel's integer arguments as
    launched: the two programs' host operations up to the weights are the same list. -/
theorem found (c : Dev nD) :
    (V m c main_v25 : S64x2048.Idx → Elt F .f32)
      = Cert.ReferenceIdeal.Read.val_main_v25 (F := F) (m ((c : Thread nD τ).loc main_arg1)) (m ((c : Thread nD τ).loc main_arg2))
          (m ((c : Thread nD τ).loc main_arg3)) (m ((c : Thread nD τ).loc main_arg4)) := by
  dsimp only [Gen.V]
  simp only [Gen.hostOps0, Gen.hostOps0_1, List.flatten_cons, List.flatten_nil, List.append_nil, List.cons_append,
    List.nil_append]
  after_results_simp
  rfl

end Cert.KernelIdeal.Weights

end
-- ==== Proof.RefScaled.lean ====
/-
  The reference's result at the ideal instance. Its last three operations spread the [64, 2048] weight array along
  a new feature axis of extent 1, then along all 512 features, and multiply by x with the weight on the LEFT:
  (b, s, d) ↦ w(b, s) · x(b, s, d). Multiplication of extended reals is commutative (at the infinities too), so this is
  x(b, s, d) · w(b, s), the kernel's `scaled x w` with w the reference's own weight stage.
-/
import proofs.«172946_j23905787970107_2_alg».proof.Proof.ScaledRows
import proofs.«172946_j23905787970107_2_alg».proof.Proof.Gen.ReferenceIdeal.Read
import Idealize.ShloMosaic.PureOps.Ideal

noncomputable section

open Idealize.ShloMosaic Idealize.ShloMosaic.TcCoe Idealize.SL.Sem

namespace Cert.ReferenceIdeal.Scaled

open Cert.ReferenceIdeal Cert.ReferenceIdeal.Read

/-- The reference's result stage is every element of x times the weight of its row, the weights the reference's
    weight stage: the two spreadings read the weight at (b, s), and w · x = x · w on the extended reals. -/
theorem result_eq (x0 : (⟨S64x2048x512, .f32⟩ : BufTy).Contents (Elt Ideal)) (x1 : (⟨S64x2, .i32⟩ : BufTy).Contents (Elt Ideal))
    (x2 x3 : (⟨S64, .i32⟩ : BufTy).Contents (Elt Ideal)) (x4 : (⟨S64x2048, .i32⟩ : BufTy).Contents (Elt Ideal)) :
    val_main_v28 (F := Ideal) x0 x1 x2 x3 x4
      = Cert.KernelIdeal.Scaled.scaled (F := Ideal) x0 (val_main_v25 (F := Ideal) x1 x2 x3 x4) := by
  funext i
  have e : idx_main_v26 (idx_main_v27 i) = Cert.KernelIdeal.Scaled.rowOf i := by
    funext a; apply Fin.ext
    match a with
    | ⟨0, _⟩ => rfl
    | ⟨1, _⟩ => rfl
  rw [val_main_v28_apply, val_main_v27_apply, val_main_v26_apply, e]
  show (val_main_v25 (F := Ideal) x1 x2 x3 x4 (Cert.KernelIdeal.Scaled.rowOf i) : EReal) * x0 i
    = x0 i * val_main_v25 (F := Ideal) x1 x2 x3 x4 (Cert.KernelIdeal.Scaled.rowOf i)
  exact mul_comm _ _

end Cert.ReferenceIdeal.Scaled

end
-- ==== Proof.lean ====
/-
  The kernel multiplies every element x(b, s, d) of a [64, 2048, 512] array by a weight w(b, s) of its row, block by
  block over an 8 × 4 grid; the reference multiplies the weight, spread along the feature axis, by x. Both programs
  compute the [64, 2048] weights from the four integer arguments by the same thirty host operations, so the weights are
  one term on both sides and are never opened. What remains between the two results is the order of the two factors:
  x · w against w · x, equal on the extended reals by commutativity of their product, which holds at the infinities too,
  so the finiteness of the inputs is not used.

  The kernel's side: each grid point writes back its block of `scaled x w` (ScaledRows), the blocks tile the array,
  and the weight array the region finds is the reference's weight stage of the kernel's arguments (Weights). The
  reference's side: its result stage read at an index is w(b, s) · x(b, s, d) (RefScaled). The three frames are the
  generated runs; the idealization rewrote nothing, so the preservation claim is trivial.
-/
import proofs.«172946_j23905787970107_2_alg».proof.Defs
import proofs.«172946_j23905787970107_2_alg».proof.Proof.Gen.Kernel
import proofs.«172946_j23905787970107_2_alg».proof.Proof.Gen.Kernel.Skeleton
import proofs.«172946_j23905787970107_2_alg».proof.Proof.Gen.Kernel.Launch
import proofs.«172946_j23905787970107_2_alg».proof.Proof.Gen.Kernel.Points
import proofs.«172946_j23905787970107_2_alg».proof.Proof.Gen.Kernel.Frame
import proofs.«172946_j23905787970107_2_alg».proof.Proof.Gen.KernelIdeal
import proofs.«172946_j23905787970107_2_alg».proof.Proof.Gen.KernelIdeal.Skeleton
import proofs.«172946_j23905787970107_2_alg».proof.Proof.Gen.KernelIdeal.Launch
import proofs.«172946_j23905787970107_2_alg».proof.Proof.Gen.KernelIdeal.Points
import proofs.«172946_j23905787970107_2_alg».proof.Proof.Gen.KernelIdeal.Frame
import proofs.«172946_j23905787970107_2_alg».proof.Proof.Gen.ReferenceIdeal
import proofs.«172946_j23905787970107_2_alg».proof.Proof.Gen.Pre_finite_inputs
import proofs.«172946_j23905787970107_2_alg».proof.Proof.Gen.KernelIdeal.Value
import proofs.«172946_j23905787970107_2_alg».proof.Proof.Gen.ReferenceIdeal.Run
import proofs.«172946_j23905787970107_2_alg».proof.Proof.Gen.ReferenceIdeal.Read
import proofs.«172946_j23905787970107_2_alg».proof.Proof.ScaledRows
import proofs.«172946_j23905787970107_2_alg».proof.Proof.Weights
import proofs.«172946_j23905787970107_2_alg».proof.Proof.RefScaled
import Idealize.ShloMosaic.Adequacy
import Idealize.ShloMosaic.Init

noncomputable section

namespace Cert.Proof

open Idealize.ShloMosaic Idealize.ShloMosaic.TcCoe Idealize.SL.Sem

/-- The idealized kernel's run: the result array ends at every element of x times the weight of its row, the weights
    the reference's weight stage of the kernel's own integer arguments; the arguments end unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v26)
          = Cert.KernelIdeal.Scaled.scaled (F := Ideal) (m ((c.tc : Thread Cert.KernelIdeal.nD Cert.KernelIdeal.τ).loc Cert.KernelIdeal.main_arg0))
              (Cert.ReferenceIdeal.Read.val_main_v25 (F := Ideal)
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
                (m ((c.tc : Thread Cert.KernelIdeal.nD Cert.KernelIdeal.τ).loc Cert.KernelIdeal.main_arg4)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono
    (fun r h c => ⟨(h c).1.trans ((Cert.KernelIdeal.Scaled.final m c).trans
        (congrArg (Cert.KernelIdeal.Scaled.scaled (F := Ideal) _) (Cert.KernelIdeal.Weights.found m c))), (h c).2⟩)
    (Cert.KernelIdeal.Value.run_blocks (F := Ideal) m ρ)

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both runs end with the result array at `scaled x w` of the kernel's
    arguments: the kernel's by its run, the reference's because its result stage is w · x = x · w index by index. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.Scaled.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
